-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.sign_bit.Statement Cert.KernelIdeal.S1024x1024 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S4x4096x1024 .f32) (main_arg1 : FVec F S1024x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S4x4096x1024 : Shape := ⟨3, ![4, 4096, 1024]⟩
abbrev S1024x1024 : Shape := ⟨2, ![1024, 1024]⟩
abbrev S16384x1024 : Shape := ⟨2, ![16384, 1024]⟩

abbrev nBuf : Space → Nat
  | .hbm => 7
  | .vmem => 5
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S16384x1024, .f32⟩
  | .hbm, ⟨3, _⟩ => ⟨S1024x1024, .f32⟩
  | .hbm, ⟨4, _⟩ => ⟨S1024x1024, .bf16⟩
  | .hbm, ⟨5, _⟩ => ⟨S16384x1024, .f32⟩
  | .hbm, ⟨6, _⟩ => ⟨S4x4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [BitOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x4096x1024_S16384x1024 : S4x4096x1024.ShapeCasts S16384x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S16384x1024_S4x4096x1024 : S16384x1024.ShapeCasts S4x4096x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x1024.size a
  hwx0_2 : ∀ i : grid0.Coords, EltTy.bits .f32 = 32 ∨ (Rect.block (s := S16384x1024) S1024x1024.size (cc0_transform_2 i) (hinb0_2 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S4x4096x1024, .f32⟩
  | .hbm, ⟨3, _⟩ => ⟨S1024x1024, .f32⟩
  | .hbm, ⟨4, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  dot_S4x4096x1024_S1024x1024_S4x4096x1024_2_1_01_0_n_n_wf : DotDims.WF S4x4096x1024 S1024x1024 S4x4096x1024 [2] [1] [0, 1] [0] [] []

variable [Facts₀]

def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf

class Facts : Prop extends Facts₀ where

variable [Facts]
-- ==== Proof.SignLinear.lean ====
/-
  The mathematics of a sign-binarized linear layer, stated once and free of either program.

  For an activation array `x` of shape [4, 4096, 1024] and a weight array `W` of shape [1024, 1024] (rows are output
  features, columns input features) the layer's value at (b, s, o) is
      ∑ k, sign (x (b, s, k)) · sign (W (o, k)),
  a sum of 1024 products of numbers in {-1, 0, 1} on the extended reals (`Ideal.sign` sends -∞ to -1 and +∞ to 1, so
  nothing here asks the entries to be finite). The same value is reached through the flattened view: with the first two
  axes of `x` merged into one row axis of length 16384 = 4 · 4096 (row r = b · 4096 + s) the layer is a plain
  rows × rows product, `rowProduct`, and unmerging the row axis of that product gives the three-axis array back
  (`unflatten_rowProduct`). Merging and unmerging are re-readings of the same row-major positions, so the law is an
  identity of sums term by term: no reordering, no distributivity.
-/
import Idealize.ShloMosaic.PureOps.Ideal
import Idealize.ShloMosaic.PureOps.Ideal.Laws
import Idealize.ShloMosaic.Lib.ValueIdx
import Idealize.ShloMosaic.Lib.Pipeline.Value

noncomputable section

namespace Cert.SignLinear

open Idealize.ShloMosaic Idealize.ShloMosaic.ValueIdx

/-- The activations' shape, the flattened activations' shape and the weights' shape. -/
abbrev Sx : Shape := ⟨3, ![4, 4096, 1024]⟩
abbrev Sr : Shape := ⟨2, ![16384, 1024]⟩
abbrev Sw : Shape := ⟨2, ![1024, 1024]⟩

/-- The layer: at (b, s, o) the sum over the 1024 input features of sign x(b, s, k) · sign W(o, k). -/
def signLinear (x : Sx.Idx → EReal) (W : Sw.Idx → EReal) : Sx.Idx → EReal := fun j =>
  ∑ k : Fin 1024, Ideal.sign (x (ix3 (j 0) (j 1) k)) * Ideal.sign (W (ix2 (j 2) k))

/-- A rows × rows product with the left factor's sign taken: at (r, o) the sum over k of sign X(r, k) · B(o, k). The
    right factor is used as it is (the weights arrive already binarized). -/
def rowProduct (X : Sr.Idx → EReal) (B : Sw.Idx → EReal) : Sr.Idx → EReal := fun i =>
  ∑ k : Fin 1024, Ideal.sign (X (ix2 (i 0) k)) * B (ix2 (i 1) k)

/-- Row b · 4096 + s of the flattened view, as an index of the row axis. -/
def row (b : Fin 4) (s : Fin 4096) : Fin 16384 := ⟨b.val * 4096 + s.val, by have := b.isLt; have := s.isLt; omega⟩

/-- The flattened view read at (b · 4096 + s, k) is the array at (b, s, k): both have row-major position
    (b · 4096 + s) · 1024 + k. -/
theorem flatten_apply (x : Sx.Idx → EReal) (h : Sx.ShapeCasts Sr) (b : Fin 4) (s : Fin 4096) (k : Fin 1024) :
    shapeCast Sr x h (ix2 (row b s) k) = x (ix3 b s k) :=
  shapeCast_apply x h _ _ (by
    rw [Shape.rowMajor_val_three, Shape.rowMajor_val_two]
    rfl)

/-- Unmerging the row axis: the three-axis view read at (b, s, o) is the two-axis array at (b · 4096 + s, o). -/
theorem unflatten_apply (y : Sr.Idx → EReal) (h : Sr.ShapeCasts Sx) (b : Fin 4) (s : Fin 4096) (o : Fin 1024) :
    shapeCast Sx y h (ix3 b s o) = y (ix2 (row b s) o) :=
  shapeCast_apply y h _ _ (by
    rw [Shape.rowMajor_val_three, Shape.rowMajor_val_two]
    rfl)

/-- THE LAW that joins the two arrangements: flatten the activations, multiply rows by rows against the binarized weights,
    unflatten — the result is the layer. Term by term the two sums are the same products. -/
theorem unflatten_rowProduct (x : Sx.Idx → EReal) (W : Sw.Idx → EReal) (h : Sx.ShapeCasts Sr) (h' : Sr.ShapeCasts Sx) :
    shapeCast Sx (rowProduct (shapeCast Sr x h) (fun i => Ideal.sign (W i))) h' = signLinear x W := by
  funext j
  obtain ⟨b, s, o, rfl⟩ : ∃ (b : Fin 4) (s : Fin 4096) (o : Fin 1024), j = ix3 b s o := ⟨j 0, j 1, j 2, eq_ix3 j⟩
  rw [unflatten_apply]
  show ∑ k : Fin 1024, Ideal.sign (shapeCast Sr x h (ix2 (row b s) k)) * Ideal.sign (W (ix2 o k))
    = ∑ k : Fin 1024, Ideal.sign (x (ix3 b s k)) * Ideal.sign (W (ix2 o k))
  refine Finset.sum_congr rfl fun k _ => ?_
  rw [flatten_apply]

end Cert.SignLinear

end
-- ==== Proof.KernelBody.lean ====
/-
  What one grid step computes. The body loads a [1024, 1024] block `x` of flattened activations and the whole
  [1024, 1024] array `w` of binarized weights, takes the sign of `x` entrywise — spelt by comparisons: where |x| > 0,
  -1 if x < 0 and 1 otherwise; where |x| = 0, x itself, which is 0 — narrows it to bf16 (no change on the extended
  reals) and multiplies, contracting the second axis of both factors, into a zero accumulator. So its entry (p, q) is
      ∑ k, sign x(p, k) · w(q, k),
  the rows × rows product of the specification read on this block.
-/
import proofs.«162357_j8040178778127_2_alg».proof.Proof.Gen.KernelIdeal.Skeleton
import proofs.«162357_j8040178778127_2_alg».proof.Proof.SignLinear
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-! ## The contraction's operand indices, coordinate by coordinate -/

/-- The left operand is read at the output's row … -/
theorem left_row (j : S1024x1024.Idx) (q : dot_S1024x1024_S1024x1024_S1024x1024_1_1_0_0_n_n.contr.Idx) :
    (dot_S1024x1024_S1024x1024_S1024x1024_1_1_0_0_n_n.lhsIdx j q 0).val = (j 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl
/-- … and the contracted feature. -/
theorem left_feature (j : S1024x1024.Idx) (q : dot_S1024x1024_S1024x1024_S1024x1024_1_1_0_0_n_n.contr.Idx) :
    (dot_S1024x1024_S1024x1024_S1024x1024_1_1_0_0_n_n.lhsIdx j q 1).val = (q ⟨0, by decide⟩).val :=
  dot_S1024x1024_S1024x1024_S1024x1024_1_1_0_0_n_n.lhsIdx_val_of_single rfl j q
/-- The right operand is read at the output's COLUMN as its row … -/
theorem right_row (j : S1024x1024.Idx) (q : dot_S1024x1024_S1024x1024_S1024x1024_1_1_0_0_n_n.contr.Idx) :
    (dot_S1024x1024_S1024x1024_S1024x1024_1_1_0_0_n_n.rhsIdx j q 0).val = (j 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl
/-- … and the contracted feature. -/
theorem right_feature (j : S1024x1024.Idx) (q : dot_S1024x1024_S1024x1024_S1024x1024_1_1_0_0_n_n.contr.Idx) :
    (dot_S1024x1024_S1024x1024_S1024x1024_1_1_0_0_n_n.rhsIdx j q 1).val = (q ⟨0, by decide⟩).val :=
  dot_S1024x1024_S1024x1024_S1024x1024_1_1_0_0_n_n.rhsIdx_val_of_single rfl j q

/-! ## The product into a zero accumulator, at an entry -/

/-- On the extended reals the block product into the zero accumulator is, at (p, q), the sum over the 1024 features of
    l(p, k) · r(q, k): both factors are contracted along their second axis. -/
theorem product_apply (l r : FVec Ideal S1024x1024 .bf16) (p q : Fin 1024) :
    matmul dot_S1024x1024_S1024x1024_S1024x1024_1_1_0_0_n_n none l r (constant (F := Ideal) S1024x1024 .f32 0x00000000#32) (ix2 p q)
      = ∑ k : Fin 1024, l (ix2 p k) * r (ix2 q k) := by
  simp only [matmul]
  rw [Ideal.matmul_constant_zero_apply,
    ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q)
      ((contrEquiv1 dot_S1024x1024_S1024x1024_S1024x1024_1_1_0_0_n_n 1024 rfl rfl).symm k) = ix2 p k :=
    funext fun a => Fin.ext (by
      match a with
      | ⟨0, _⟩ => exact left_row _ _
      | ⟨1, _⟩ => exact (left_feature _ _).trans hk)
  have er : dot_S1024x1024_S1024x1024_S1024x1024_1_1_0_0_n_n.rhsIdx (ix2 p q)
      ((contrEquiv1 dot_S1024x1024_S1024x1024_S1024x1024_1_1_0_0_n_n 1024 rfl rfl).symm k) = ix2 q k :=
    funext fun a => Fin.ext (by
      match a with
      | ⟨0, _⟩ => exact right_row _ _
      | ⟨1, _⟩ => exact (right_feature _ _).trans hk)
  rw [el, er]

/-! ## The body's stored value -/

/-- The value the body stores, at entry (p, q) of its block: the sum over k of sign x(p, k) · w(q, k). The comparisons'
    spelling of the sign is the sign on every extended real, the infinities included. -/
theorem payload_apply (x : Vec Ideal S1024x1024 .f32) (w : Vec Ideal S1024x1024 .bf16) (p q : Fin 1024) :
    k0_pay1 (F := Ideal) x w (ix2 p q) = ∑ k : Fin 1024, Ideal.sign (x (ix2 p k)) * w (ix2 q k) := by
  unfold k0_pay1
  simp only [shapeCast_self]
  rw [product_apply]
  refine Finset.sum_congr rfl fun k _ => ?_
  exact congrArg (· * w (ix2 q k)) (Ideal.jnp_sign_eq_sign_f32 (x (ix2 p k)))

end Cert.KernelIdeal.Body

end
-- ==== Proof.KernelRegion.lean ====
/-
  The kernel's whole run, read as a value. The pallas_call walks 16 grid points; point t fetches rows
  1024·t … 1024·t + 1023 of the flattened activations (all 1024 columns), keeps the whole binarized-weight array
  resident, and writes back rows 1024·t … 1024·t + 1023 of the [16384, 1024] result. What it writes back is the block
  of ONE whole-array function, the rows × rows product `rowProduct` of the flattened activations and the binarized
  weights as the region finds them; the 16 blocks tile the result (row r lies in block r / 1024), so the result array
  IS that product. Around the region the host merges the activations' first two axes and binarizes the weights
  before it, and unmerges the result's row axis after it; `unflatten_rowProduct` then says the program's result is
  the layer `signLinear` of the two arguments.
-/
import proofs.«162357_j8040178778127_2_alg».proof.Proof.Gen.KernelIdeal.Frame
import proofs.«162357_j8040178778127_2_alg».proof.Proof.KernelBody
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Region

open Cert.KernelIdeal Cert.KernelIdeal.Gen Idealize.ShloMosaic.ValueIdx Cert.SignLinear

variable (m : (ℓ : Loc nD τ sig) → Buf (Elt Ideal) ℓ) (ρ : Dev nD → PrngReg)

theorem zero_offsets : (![0, 0] : Fin 2 → Nat) = fun _ => 0 := funext fun a => by fin_cases a <;> rfl

/-- The three index maps over the grid: at point t the activations' window and the result's window are both at block
    row t, block column 0; the weights' window stays at block (0, 0). -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One entry of one block, over plain blocks and arrays: if row y₀ of the activation block is row i₀ of the array
    `X`, and row y₁ of the weight block is row i₁ of the array `B`, then the body's entry y is the product's entry i. -/
theorem block_entry (x : Vec Ideal S1024x1024 .f32) (w : Vec Ideal S1024x1024 .bf16)
    (X : S16384x1024.Idx → EReal) (B : S1024x1024.Idx → EReal) (y : S1024x1024.Idx) (i : S16384x1024.Idx)
    (hx : ∀ k : Fin 1024, x (ix2 (y 0) k) = X (ix2 (i 0) k))
    (hw : ∀ k : Fin 1024, w (ix2 (y 1) k) = B (ix2 (i 1) k)) :
    k0_pay1 (F := Ideal) x w y = rowProduct X B i := by
  refine (congrArg (k0_pay1 (F := Ideal) x w) (eq_ix2 y)).trans ?_
  refine (Body.payload_apply x w (y 0) (y 1)).trans ?_
  unfold rowProduct
  exact Finset.sum_congr rfl fun k _ => by rw [hx k, hw k]

/-- WHAT POINT t WRITES BACK is block t of the rows × rows product of the two arrays the region finds. -/
theorem flushed_eq (c : Dev nD) (t : Fin cfg0.N) :
    (dats m 0 c).flushed 2 t
      = ((cfg0.win 2).blk t).view.read (Elt Ideal) (rowProduct (V m c main_v0) (V m c main_v2)) := by
  show (cfg0.win 2).cut (grid0.coords t) ((dats m 0 c).after 2 t) = _
  rw [after0_2]
  unfold out0_2
  rw [View.canon_unit_zero zero_offsets]
  simp only [View.ld_unit_zero (S := S1024x1024) zero_offsets]
  obtain ⟨e0, e1, e2, e3, e4, e5⟩ := block_indices t
  funext j
  refine block_entry (iblk m c 0 t) (iblk m c 1 t) (V m c main_v0) (V m c main_v2) j (((cfg0.win 2).blk t).view.emb j) ?_ ?_
  · intro k
    show V m c main_v0 (((cfg0.win 0).blk t).view.emb (ix2 (j 0) k)) = V m c main_v0 _
    refine congrArg _ (funext fun a => Fin.ext ?_)
    match a with
    | ⟨0, _⟩ =>
      show win0_0.index t (0 : Fin 2) * 1024 + 1 * (j 0).val = win0_2.index t (0 : Fin 2) * 1024 + 1 * (j 0).val
      omega
    | ⟨1, _⟩ =>
      show win0_0.index t (1 : Fin 2) * 1024 + 1 * k.val = k.val
      omega
  · intro k
    show V m c main_v2 (((cfg0.win 1).blk t).view.emb (ix2 (j 1) k)) = V m c main_v2 _
    refine congrArg _ (funext fun a => Fin.ext ?_)
    match a with
    | ⟨0, _⟩ =>
      show win0_1.index t (0 : Fin 2) * 1024 + 1 * (j 1).val = win0_2.index t (1 : Fin 2) * 1024 + 1 * (j 1).val
      omega
    | ⟨1, _⟩ =>
      show win0_1.index t (1 : Fin 2) * 1024 + 1 * k.val = k.val
      omega

/-- An index of the result is in point t's block iff each coordinate is in the block's range on its axis. -/
theorem mem_block (t : Fin cfg0.N) (i : S16384x1024.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v3).slice (win0_2.rect t)).set ↔ _
  rw [View.set_slice_whole, Rect.mem_set_unit]
  exact Iff.rfl

/-- The blocks tile the result: row r is written back by point r / 1024. -/
theorem covered (i : S16384x1024.Idx) :
    ∃ t : Fin cfg0.N, (cfg0.win 2).flush t = true ∧ i ∈ ((cfg0.win 2).blk t).view.set := by
  have hi0 : (i 0).val < 16384 := (i 0).isLt
  have hi1 : (i 1).val < 1024 := (i 1).isLt
  have hN : cfg0.N = 16 := N_0
  refine ⟨⟨(i 0).val / 1024, by rw [hN]; omega⟩, flush0_2 _, ?_⟩
  rw [mem_block]
  obtain ⟨-, -, -, -, e4, e5⟩ := block_indices ⟨(i 0).val / 1024, by rw [hN]; omega⟩
  intro a
  match a with
  | ⟨0, _⟩ =>
    show win0_2.index ⟨(i 0).val / 1024, _⟩ (0 : Fin 2) * 1024 ≤ (i 0).val
      ∧ (i 0).val < win0_2.index ⟨(i 0).val / 1024, _⟩ (0 : Fin 2) * 1024 + 1024
    rw [e4]
    show (i 0).val / 1024 * 1024 ≤ (i 0).val ∧ (i 0).val < (i 0).val / 1024 * 1024 + 1024
    omega
  | ⟨1, _⟩ =>
    show win0_2.index ⟨(i 0).val / 1024, _⟩ (1 : Fin 2) * 1024 ≤ (i 1).val
      ∧ (i 1).val < win0_2.index ⟨(i 0).val / 1024, _⟩ (1 : Fin 2) * 1024 + 1024
    rw [e5]
    omega

/-- THE RESULT ARRAY of the region after the run is the rows × rows product of the arrays the region finds. -/
theorem region_result (c : Dev nD) :
    (dats m 0 c).arrAt 2 cfg0.N = rowProduct (V m c main_v0) (V m c main_v2) :=
  (dats m 0 c).arrAt_eq_of_cover 2 _ (fun t _ => flushed_eq m c t) covered

/-- The host's lines before the region: the activations with their first two axes merged … -/
theorem entry_activations (c : Dev nD) :
    (V m c main_v0 : S16384x1024.Idx → EReal)
      = shapeCast S16384x1024 (m ((c : Thread nD τ).loc main_arg0)) shapeCasts_S4x4096x1024_S16384x1024 := by
  show StableHlo.after hostOps0 (fun b => m (c, b)) (Proc.devRef .tc main_v0) = _
  after_results
  rfl

/-- … and the weights' signs (their narrowing to bf16 changes nothing on the extended reals). -/
theorem entry_weights (c : Dev nD) :
    (V m c main_v2 : S1024x1024.Idx → EReal) = fun i => Ideal.sign (m ((c : Thread nD τ).loc main_arg1) i) := by
  show StableHlo.after hostOps0 (fun b => m (c, b)) (Proc.devRef .tc main_v2) = _
  after_results
  rfl

/-- THE PROGRAM'S RESULT: the host's line after the region unmerges the row axis of the region's result array, which is
    the rows × rows product of the merged activations and the weights' signs — the layer of the two arguments. -/
theorem program_result (c : Dev nD) :
    (Pipeline.afterTail₀ cfgs (dats m) 0 (V0 m) [hostOps1] c main_v4 : S4x4096x1024.Idx → EReal)
      = signLinear (m ((c : Thread nD τ).loc main_arg0)) (m ((c : Thread nD τ).loc main_arg1)) := by
  unfold Pipeline.afterTail₀
  show StableHlo.after hostOps1 _ (Proc.devRef .tc main_v4) = _
  after_results
  show shapeCast S4x4096x1024 (Pipeline.withArrays spec0 c (V0 m c) (fun w => (dats m 0 c).arrAt w cfg0.N)
      (Proc.devRef .tc (Pipeline.arrRef spec0 2))) shapeCasts_S16384x1024_S4x4096x1024 = _
  rw [Pipeline.withArrays_arr spec0 launch0.win.arr_inj c _ _ 2, region_result, entry_activations, entry_weights]
  exact unflatten_rowProduct _ _ _ _

/-- The run, read: every weakly fair execution of the program terminates with its result at the layer of its two
    arguments and the arguments unchanged. -/
theorem run : θ_run defs (onTc (τ := τ) (main (F := Ideal))) ⟨m, fun _ => 0, ρ⟩ fun r => ∀ c : Dev nD,
      r.2.mem ((c : Thread nD τ).loc main_v4)
        = signLinear (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v4 (Pipeline.mem_restRefs_of main_v4 (by decide) (by decide))).trans (program_result m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Region

end
-- ==== Proof.ReferenceLayer.lean ====
/-
  The reference computes the layer. Its three host operations are sign of the activations, sign of the weights and a
  `dot_general` contracting the activations' last axis with the weights' last axis; read at an index (b, s, o) on the
  extended reals that is the sum over k of sign x(b, s, k) · sign W(o, k): `signLinear`, with nothing to rearrange — the
  contraction's left index is (b, s, k) and its right index is (o, k).
-/
import proofs.«162357_j8040178778127_2_alg».proof.Proof.Gen.ReferenceIdeal.Read
import proofs.«162357_j8040178778127_2_alg».proof.Proof.SignLinear

noncomputable section

namespace Cert.ReferenceIdeal.Layer

open Cert.ReferenceIdeal Cert.ReferenceIdeal.Read Idealize.ShloMosaic Idealize.ShloMosaic.ValueIdx Cert.SignLinear

/-- The contraction's left operand index at output index `i` and feature `k` is (i 0, i 1, k). -/
theorem left_index (i : S4x4096x1024.Idx) (k : Fin 1024) : lidx_main_v2 i k = ix3 (i 0) (i 1) k :=
  funext fun a => Fin.ext (by match a with | ⟨0, _⟩ => rfl | ⟨1, _⟩ => rfl | ⟨2, _⟩ => rfl)

/-- Its right operand index is (i 2, k). -/
theorem right_index (i : S4x4096x1024.Idx) (k : Fin 1024) : ridx_main_v2 i k = ix2 (i 2) k :=
  funext fun a => Fin.ext (by match a with | ⟨0, _⟩ => rfl | ⟨1, _⟩ => rfl)

/-- The reference's result, as a function of its two arguments, is the layer. -/
theorem reference_eq (x : FVec Ideal S4x4096x1024 .f32) (W : FVec Ideal S1024x1024 .f32) :
    val_main_v2 (F := Ideal) x W = signLinear x W := by
  funext i
  rw [val_main_v2_apply]
  unfold signLinear
  refine Finset.sum_congr rfl fun k _ => ?_
  rw [val_main_v0_apply, val_main_v1_apply, left_index, right_index]
  rfl

end Cert.ReferenceIdeal.Layer

end
-- ==== Proof.lean ====
/-
  A sign-binarized linear layer: for activations x of shape [4, 4096, 1024] and weights W of shape [1024, 1024] the
  value at (b, s, o) is ∑ k, sign x(b, s, k) · sign W(o, k).

  The kernel merges the activations' first two axes into 16384 rows, binarizes the weights once on the host, and in 16
  grid steps multiplies each block of 1024 rows (sign taken inside the body, spelt by comparisons) against the resident
  binarized weights, contracting the feature axis of both; the host unmerges the row axis of the result. The reference
  takes both signs on the host and contracts the same axes with one `dot_general`. On the extended reals both are the
  same sum of the same 1024 products at every index (Proof/SignLinear.lean states it and the law that merging and
  unmerging the row axis changes no term; Proof/KernelBody.lean reads one grid step; Proof/KernelRegion.lean the whole
  run; Proof/ReferenceLayer.lean the reference). Nothing in the argument needs the inputs finite: the sign is defined
  at the infinities and no sum is rearranged.

  `preserves` is the one rewrite the idealization made — the bit-level "1.0 carrying x's sign bit" read as
  `select (x < 0) (-1) 1` — restated at the body's shape and format. The three frames are the generated frame runs
  (the reference's is its generated run with the result dropped).
-/
import proofs.«162357_j8040178778127_2_alg».proof.Defs
import proofs.«162357_j8040178778127_2_alg».proof.Proof.Gen.Kernel
import proofs.«162357_j8040178778127_2_alg».proof.Proof.Gen.Kernel.Frame
import proofs.«162357_j8040178778127_2_alg».proof.Proof.Gen.KernelIdeal
import proofs.«162357_j8040178778127_2_alg».proof.Proof.Gen.KernelIdeal.Frame
import proofs.«162357_j8040178778127_2_alg».proof.Proof.Gen.ReferenceIdeal
import proofs.«162357_j8040178778127_2_alg».proof.Proof.Gen.ReferenceIdeal.Run
import proofs.«162357_j8040178778127_2_alg».proof.Proof.Gen.ReferenceIdeal.Read
import proofs.«162357_j8040178778127_2_alg».proof.Proof.Gen.Pre_finite_inputs
import proofs.«162357_j8040178778127_2_alg».proof.Proof.KernelRegion
import proofs.«162357_j8040178778127_2_alg».proof.Proof.ReferenceLayer
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The one rewrite of the idealization: at the word level the window is ±1.0's pattern chosen by the sign bit; on the
    extended reals its replacement is ±1 chosen by x < 0. -/
theorem preserves : Cert.preserves_Kernel_KernelIdeal :=
  IdealRules.sign_bit.statement Cert.KernelIdeal.S1024x1024 .f32

/-- On the extended reals the kernel's result array and the reference's are both the layer of arguments that agree. -/
theorem algebraic : Cert.algebraic_KernelIdeal_ReferenceIdeal := by
  intro m ρ m' ρ' _ hagree
  refine ⟨_, Cert.KernelIdeal.Region.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v2_eq _ _).trans (Cert.ReferenceIdeal.Layer.reference_eq _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
